-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x2048 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S1024x768 .f32) (main_arg3 : FVec F S1024 .f32) (main_arg4 : FVec F S1x2048 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S1x1024 : Shape := ⟨2, ![1, 1024]⟩
abbrev S1x1 : Shape := ⟨2, ![1, 1]⟩
abbrev S16384x1 : Shape := ⟨2, ![16384, 1]⟩
abbrev S1024x1 : Shape := ⟨2, ![1024, 1]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S1x1024, .f32⟩
  | .hbm, ⟨7, _⟩ => ⟨S1x1, .f32⟩
  | .hbm, ⟨8, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1x1024, .f32⟩
  | .local _ .vmem, ⟨6, _⟩ => ⟨S1x2048, .f32⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048_S1x2048_0_0 : ∀ a, (![0, 0] : Fin 2 → Nat) a + S1x2048.size a ≤ S1x2048.size a
  h_S1x2048 : 0 < S1x2048.numel
  slices_S1x2048_o0_0_S1x1024 : S1x2048.Slices ![0, 0] S1x1024
  slices_S1x2048_o0_1024_S1x1024 : S1x2048.Slices ![0, 1024] S1x1024
  broadcasts_S1x1024_S1024x1024 : S1x1024.Broadcasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .f32 = 32 ∨ (Rect.block (s := S1024x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S16384x1.size a
  hwx0_6 : ∀ i : grid0.Coords, EltTy.bits .f32 = 32 ∨ (Rect.block (s := S16384x1) S1024x1.size (cc0_transform_6 i) (hinb0_6 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S1024x768_S16384x1024_1_1_0_0_n_n_wf : DotDims.WF S16384x768 S1024x768 S16384x1024 [1] [1] [0] [0] [] []
  dot_S16384x2048_S1x2048_S16384x1_1_1_0_0_n_n_wf : DotDims.WF S16384x2048 S1x2048 S16384x1 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf
def dot_S16384x2048_S1x2048_S16384x1_1_1_0_0_n_n : DotDims S16384x2048 S1x2048 S16384x1 where
  lhsContracting := [1]
  rhsContracting := [1]
  lhsNonContracting := [0]
  rhsNonContracting := [0]
  lhsBatch := []
  rhsBatch := []
  wf := dot_S16384x2048_S1x2048_S16384x1_1_1_0_0_n_n_wf

class Facts : Prop extends Facts₀ where

variable [Facts]
-- ==== Proof.Spec.lean ====
/-
  The function both programs compute, written once on the extended reals.

  A board row x (768 entries) is sent through the feature transformer: feature o is Σ_f x f · W o f + β o. Each feature
  is clamped to [0, 1] and squared. The two perspectives' 1024 activations are weighted by the first and by the second half
  of a 2048-entry weight row ω, both weighted sums are added, the output bias γ is added, and the logistic function is
  applied. One output row depends on ONE row of each board and on all of W, β, ω, γ.

  The reference lays the two perspectives' activations side by side (2048 of them) and takes one weighted sum over all
  2048; the kernel takes the two halves' sums separately and adds them. The two agree because a sum over 2048 indices is the
  sum over the first 1024 plus the sum over the last 1024 (`sum_halves`): addition on the extended reals is commutative
  and associative at the infinities too, so nothing has to be finite.
-/
import Idealize.ShloMosaic.PureOps.Ideal
import Idealize.ShloMosaic.PureOps.Ideal.Laws
import Idealize.ShloMosaic.PureOps.IdealRules
import Idealize.ShloMosaic.Lib.ValueIdx

noncomputable section

namespace Cert.TwoSided

open Idealize.ShloMosaic Idealize.ShloMosaic.ValueIdx

/-- The clamp's lower bound, the f32 word of 0.0, and its upper bound, the f32 word of 1.0. Both programs write the same
    two words, so the clamp is never evaluated; only the logistic function's `1` is. -/
abbrev lo : EReal := Ideal.ofBits .f32 0x00000000#32
abbrev hi : EReal := Ideal.ofBits .f32 0x3F800000#32

/-- The f32 word 0x3F800000 denotes the number one. -/
theorem ofBits_one_f32 : Ideal.ofBits .f32 0x3F800000#32 = 1 := IdealRules.sign_bit.ideal_onePat .f32

/-- The activation: clamp to [lo, hi], then square. -/
def act (z : EReal) : EReal := min hi (max lo z) * min hi (max lo z)

/-- Feature `o` of a board row `x`: the row against row `o` of the weights, plus the bias. -/
def feat (x : Fin 768 → EReal) (W : Fin 1024 → Fin 768 → EReal) (β : Fin 1024 → EReal) (o : Fin 1024) : EReal :=
  (∑ f : Fin 768, x f * W o f) + β o

/-- One perspective's contribution to the output: its 1024 activations weighted by 1024 output weights. -/
def half (x : Fin 768 → EReal) (W : Fin 1024 → Fin 768 → EReal) (β : Fin 1024 → EReal) (ω' : Fin 1024 → EReal) : EReal :=
  ∑ o : Fin 1024, act (feat x W β o) * ω' o

/-- Position `o` of the first half, and of the second half, of a 2048-entry row. -/
def lowHalf (o : Fin 1024) : Fin 2048 := ⟨o.val, by have := o.isLt; omega⟩
def highHalf (o : Fin 1024) : Fin 2048 := ⟨1024 + o.val, by have := o.isLt; omega⟩

/-- The value before the logistic function: the first perspective against the first half of ω, the second against the
    second half, and the output bias. -/
def score (x y : Fin 768 → EReal) (W : Fin 1024 → Fin 768 → EReal) (β : Fin 1024 → EReal) (ω : Fin 2048 → EReal) (γ : EReal) : EReal :=
  (half x W β (fun o => ω (lowHalf o)) + half y W β (fun o => ω (highHalf o))) + γ

/-- One output entry. -/
def eval (x y : Fin 768 → EReal) (W : Fin 1024 → Fin 768 → EReal) (β : Fin 1024 → EReal) (ω : Fin 2048 → EReal) (γ : EReal) : EReal :=
  Ideal.logistic (score x y W β ω γ)

/-- A sum over 2048 positions is the sum over the first 1024 plus the sum over the last 1024. -/
theorem sum_halves {M : Type*} [AddCommMonoid M] (g : Fin 2048 → M) :
    ∑ k : Fin 2048, g k = ∑ o : Fin 1024, g (lowHalf o) + ∑ o : Fin 1024, g (highHalf o) :=
  Fin.sum_univ_add (fun k : Fin (1024 + 1024) => g k)

/-- The whole result array [16384, 1] as one function of the six argument arrays: entry (b, 0) is `eval` of row `b` of
    the two boards. -/
def G (x0 x1 : (⟨2, ![16384, 768]⟩ : Shape).Idx → EReal) (x2 : (⟨2, ![1024, 768]⟩ : Shape).Idx → EReal)
    (x3 : (⟨1, ![1024]⟩ : Shape).Idx → EReal) (x4 : (⟨2, ![1, 2048]⟩ : Shape).Idx → EReal) (x5 : (⟨1, ![1]⟩ : Shape).Idx → EReal) :
    (⟨2, ![16384, 1]⟩ : Shape).Idx → EReal := fun i =>
  eval (fun f => x0 (ix2 (⟨(i 0).val, (i 0).isLt⟩ : Fin 16384) f)) (fun f => x1 (ix2 (⟨(i 0).val, (i 0).isLt⟩ : Fin 16384) f))
    (fun o f => x2 (ix2 o f)) (fun o => x3 (ix1 o)) (fun k => x4 (ix2 (0 : Fin 1) k)) (x5 (ix1 (0 : Fin 1)))

/-- `G` at the entry of row `b`. -/
theorem G_apply (x0 x1 : (⟨2, ![16384, 768]⟩ : Shape).Idx → EReal) (x2 : (⟨2, ![1024, 768]⟩ : Shape).Idx → EReal)
    (x3 : (⟨1, ![1024]⟩ : Shape).Idx → EReal) (x4 : (⟨2, ![1, 2048]⟩ : Shape).Idx → EReal) (x5 : (⟨1, ![1]⟩ : Shape).Idx → EReal)
    (b : Fin 16384) (z : Fin 1) :
    G x0 x1 x2 x3 x4 x5 (ix2 b z)
      = eval (fun f => x0 (ix2 b f)) (fun f => x1 (ix2 b f)) (fun o f => x2 (ix2 o f)) (fun o => x3 (ix1 o))
          (fun k => x4 (ix2 (0 : Fin 1) k)) (x5 (ix1 (0 : Fin 1))) := rfl

end Cert.TwoSided

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.BodyIsSpec.lean ====
/-
  What the kernel body computes for one block of 1024 board rows, read at one row.

  The body forms, for each perspective, the [1024, 1024] array of features (block rows against the weight rows, contracted
  on their last axis, plus the bias row broadcast down the block), clamps and squares it, multiplies it by one half of the
  output weight row broadcast down the block, and sums along the lanes: row p of the resulting column is the perspective's
  weighted sum `half` of block row p. The two columns are added. Read at row p the body's value is therefore the sum of
  the two `half`s of row p of the two board blocks — the same expression the specification names.
-/
import proofs.«180554_j5411658793655_2_alg».proof.Proof.Gen.KernelIdeal.Skeleton
import proofs.«180554_j5411658793655_2_alg».proof.Proof.Spec
import proofs.«180554_j5411658793655_2_alg».proof.Proof.LibMatmulNT
import proofs.«180554_j5411658793655_2_alg».proof.Proof.LibColRowBroadcast
import Idealize.ShloMosaic.Lib.Pipeline.Value
import Idealize.ShloMosaic.PureOps.Ideal.Laws

noncomputable section

namespace Cert.TwoSided.Body

open Cert.KernelIdeal Cert.KernelIdeal.Gen Cert.TwoSided
open Idealize.ShloMosaic Idealize.ShloMosaic.ValueIdx

/-- The feature array of a block at (p, o): block row p against weight row o, plus the bias. The change of format of both
    matmul operands is the identity on the extended reals, and the accumulator is zero. -/
theorem feature_apply (x w : Vec Ideal S1024x768 .f32) (β : Vec Ideal S1x1024 .f32) (p o : Fin 1024) :
    addf (F := Ideal) (matmul dot_S1024x768_S1024x768_S1024x1024_1_1_0_0_n_n none (truncf .bf16 x bitsLt_bf16_f32) (truncf .bf16 w bitsLt_bf16_f32)
            (constant S1024x1024 .f32 0x00000000#32))
        (broadcastTo S1024x1024 (shapeCast S1x1024 β shapeCasts_S1x1024_S1x1024) broadcasts_S1x1024_S1024x1024) (ix2 p o)
      = feat (fun f => x (ix2 p f)) (fun o f => w (ix2 o f)) (fun o => β (ix2 (0 : Fin 1) o)) o := by
  have e1 : matmul (F := Ideal) dot_S1024x768_S1024x768_S1024x1024_1_1_0_0_n_n none (truncf .bf16 x bitsLt_bf16_f32) (truncf .bf16 w bitsLt_bf16_f32)
      (constant S1024x1024 .f32 0x00000000#32) (ix2 p o) = ∑ f : Fin 768, x (ix2 p f) * w (ix2 o f) :=
    Cert.MatmulNT.matmul_zero_apply 1024 768 1024 none (truncf .bf16 x bitsLt_bf16_f32) (truncf .bf16 w bitsLt_bf16_f32) p o
  have e2 : broadcastTo S1024x1024 (shapeCast S1x1024 β shapeCasts_S1x1024_S1x1024) broadcasts_S1x1024_S1024x1024 (ix2 p o)
      = β (ix2 (0 : Fin 1) o) := by
    rw [shapeCast_self]
    exact Cert.ColRowBroadcast.rowBroadcast_apply β broadcasts_S1x1024_S1024x1024 p o
  show matmul (F := Ideal) _ none _ _ _ (ix2 p o) + broadcastTo S1024x1024 _ _ (ix2 p o) = _
  rw [e1, e2]
  rfl

/-- One perspective's column at row p: the lane sum of the clamped, squared features times the weights' half. Stated for ANY
    feature array `pre` and weight half `ωh`. -/
theorem side_apply (pre : FVec Ideal S1024x1024 .f32) (ωh : FVec Ideal S1x1024 .f32)
    (hacc : (0x00000000#32 : BitVec 32) = FKind.add.neutral .f32 (.inl rfl)) (p : Fin 1024) (z : Fin 1) :
    shapeCast S1024x1 (multiReduction (F := Ideal) .add [1] S1024
        (mulf (mulf (minimumf (broadcast S1024x1024 (Scalar.ofBits .f32 0x3F800000#32)) (maximumf (broadcast S1024x1024 (Scalar.ofBits .f32 0x00000000#32)) pre))
                    (minimumf (broadcast S1024x1024 (Scalar.ofBits .f32 0x3F800000#32)) (maximumf (broadcast S1024x1024 (Scalar.ofBits .f32 0x00000000#32)) pre)))
              (broadcastTo S1024x1024 ωh broadcasts_S1x1024_S1024x1024))
        0x00000000#32 reduces_S1024x1024_S1024 (.inl rfl) hacc) shapeCasts_S1024_S1024x1 (ix2 p z)
      = ∑ o : Fin 1024, act (pre (ix2 p o)) * ωh (ix2 (0 : Fin 1) o) := by
  refine (Cert.ColRowBroadcast.colCast_apply _ shapeCasts_S1024_S1024x1 p z).trans ?_
  refine (Ideal.multiReduction_add_single _ 0x00000000#32 reduces_S1024x1024_S1024 (.inl rfl) hacc (ix1 p)).trans ?_
  show ∑ o : Fin 1024, _ = _
  refine Finset.sum_congr rfl fun o _ => ?_
  have e : reduces_S1024x1024_S1024.lift (ix1 p) o = ix2 p o := funext fun a => Fin.ext (by
    match a with | ⟨0, _⟩ => rfl | ⟨1, _⟩ => rfl)
  rw [e]
  show act (pre (ix2 p o)) * broadcastTo S1024x1024 ωh broadcasts_S1x1024_S1024x1024 (ix2 p o) = _
  rw [Cert.ColRowBroadcast.rowBroadcast_apply ωh broadcasts_S1x1024_S1024x1024 p o]

/-- The first half of the output weight row at lane o, and the second half. -/
theorem low_slice_apply (ω : Vec Ideal S1x2048 .f32) (o : Fin 1024) :
    extractStridedSlice S1x1024 ![0, 0] ω slices_S1x2048_o0_0_S1x1024 (ix2 (0 : Fin 1) o) = ω (ix2 (0 : Fin 1) (lowHalf o)) :=
  extractStridedSlice_apply _ ω _ (ix2 (0 : Fin 1) o) (ix2 (0 : Fin 1) (lowHalf o)) fun a => by
    match a with
    | ⟨0, _⟩ => rfl
    | ⟨1, _⟩ => show o.val = 0 + o.val; omega

theorem high_slice_apply (ω : Vec Ideal S1x2048 .f32) (o : Fin 1024) :
    extractStridedSlice S1x1024 ![0, 1024] ω slices_S1x2048_o0_1024_S1x1024 (ix2 (0 : Fin 1) o) = ω (ix2 (0 : Fin 1) (highHalf o)) :=
  extractStridedSlice_apply _ ω _ (ix2 (0 : Fin 1) o) (ix2 (0 : Fin 1) (highHalf o)) fun a => by
    match a with
    | ⟨0, _⟩ => rfl
    | ⟨1, _⟩ => rfl

/-- THE BODY'S COLUMN at row p of the block: the two perspectives' weighted sums of block row p, added. -/
theorem column_apply (w : Vec Ideal S1024x768 .f32) (β : Vec Ideal S1x1024 .f32) (ω : Vec Ideal S1x2048 .f32)
    (x y : Vec Ideal S1024x768 .f32) (p : Fin 1024) (z : Fin 1) :
    k0_pay2 (F := Ideal) w β ω x y (ix2 p z)
      = half (fun f => x (ix2 p f)) (fun o f => w (ix2 o f)) (fun o => β (ix2 (0 : Fin 1) o)) (fun o => ω (ix2 (0 : Fin 1) (lowHalf o)))
        + half (fun f => y (ix2 p f)) (fun o f => w (ix2 o f)) (fun o => β (ix2 (0 : Fin 1) o)) (fun o => ω (ix2 (0 : Fin 1) (highHalf o))) := by
  unfold k0_pay2 half
  show _ + _ = _
  congr 1
  · refine (side_apply _ _ rfl p z).trans ?_
    refine Finset.sum_congr rfl fun o _ => ?_
    rw [feature_apply x w β p o, low_slice_apply ω o]
  · refine (side_apply _ _ rfl p z).trans ?_
    refine Finset.sum_congr rfl fun o _ => ?_
    rw [feature_apply y w β p o, high_slice_apply ω o]

/-- THE BODY'S STORED VALUE at entry j of the block: `eval` of row j of the two board blocks. The output bias [1, 1] is
    broadcast down the block, and the logistic function is applied entry by entry. -/
theorem block_value (w : Vec Ideal S1024x768 .f32) (β : Vec Ideal S1x1024 .f32) (ω : Vec Ideal S1x2048 .f32)
    (x y : Vec Ideal S1024x768 .f32) (γ : Vec Ideal S1x1 .f32) (j : S1024x1.Idx) :
    k0_pay1 (F := Ideal) (k0_pay2 w β ω x y) (k0_pay3 γ) j
      = eval (fun f => x (ix2 (⟨(j 0).val, (j 0).isLt⟩ : Fin 1024) f)) (fun f => y (ix2 (⟨(j 0).val, (j 0).isLt⟩ : Fin 1024) f))
          (fun o f => w (ix2 o f)) (fun o => β (ix2 (0 : Fin 1) o)) (fun k => ω (ix2 (0 : Fin 1) k)) (γ (ix2 (0 : Fin 1) (0 : Fin 1))) := by
  obtain ⟨p, z, rfl⟩ : ∃ (p : Fin 1024) (z : Fin 1), j = ix2 p z := ⟨j 0, j 1, eq_ix2 j⟩
  obtain rfl : z = 0 := Subsingleton.elim _ _
  have e1 : k0_pay3 (F := Ideal) γ (ix2 p (0 : Fin 1)) = γ (ix2 (0 : Fin 1) (0 : Fin 1)) := by
    unfold k0_pay3
    show broadcastTo S1024x1 (shapeCast S1x1 γ shapeCasts_S1x1_S1x1) broadcasts_S1x1_S1024x1 (ix2 p (0 : Fin 1)) = _
    rw [shapeCast_self]
    exact Cert.ColRowBroadcast.rowBroadcast_apply γ broadcasts_S1x1_S1024x1 p (0 : Fin 1)
  unfold k0_pay1
  show Ideal.logistic (k0_pay2 (F := Ideal) w β ω x y (ix2 p (0 : Fin 1)) + k0_pay3 (F := Ideal) γ (ix2 p (0 : Fin 1))) = _
  rw [column_apply, e1]
  rfl

end Cert.TwoSided.Body

end
-- ==== Proof.KernelArray.lean ====
/-
  From the blocks the kernel writes back to the whole result array.

  Grid point t (of 16) stages rows 1024·t … 1024·t + 1023 of the two boards, all of the weights, the bias row, the output
  weight row and the output bias, and writes back rows 1024·t … 1024·t + 1023 of the [16384, 1] result. The bias row and the
  output bias reach the kernel through a reshape of the one-axis arguments ([1024] to [1, 1024], [1] to [1, 1]). What point t
  writes back is, entry by entry, `eval` of the matching rows of its board blocks, which are rows of the argument arrays:
  it is block t of `G` of the arguments. The 16 blocks cover the result array (row r lies in block r / 1024), so after the
  run the array is `G` of the arguments.
-/
import proofs.«180554_j5411658793655_2_alg».proof.Proof.KernelIdealValue
import proofs.«180554_j5411658793655_2_alg».proof.Proof.BodyIsSpec
import Idealize.ShloMosaic.Lib.Pipeline.Value
import Idealize.ShloMosaic.Lib.StableHlo.Run

noncomputable section

namespace Cert.TwoSided.Kernel

open Cert.KernelIdeal Cert.KernelIdeal.Gen Cert.KernelIdeal.ValueP Cert.TwoSided
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 16 grid points: the boards' and the result's blocks move with the point along
    the rows, every other window stays at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array as one function of the arguments at launch. -/
abbrev result (c : Dev nD) : Buf (Elt Ideal) ((c : Thread nD τ).loc main_v2) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The arrays the region finds, and the windows' blocks read at an entry -/

/-- The bias row the region finds is the one-axis bias argument re-laid as [1, 1024]. -/
theorem bias_row (c : Dev nD) : (V m c main_v0 : S1x1024.Idx → EReal)
    = shapeCast S1x1024 (m ((c : Thread nD τ).loc main_arg3) : S1024.Idx → EReal) shapeCasts_S1024_S1x1024 := by
  dsimp only [Gen.V, Gen.hostOps0]; after_results; rfl

/-- The output bias the region finds is the one-entry argument re-laid as [1, 1]. -/
theorem out_bias (c : Dev nD) : (V m c main_v1 : S1x1.Idx → EReal)
    = shapeCast S1x1 (m ((c : Thread nD τ).loc main_arg5) : S1.Idx → EReal) shapeCasts_S1_S1x1 := by
  dsimp only [Gen.V, Gen.hostOps0]; after_results; rfl

/-- Row q of the first board's block at point t is row r = 1024·t + q of the first board. -/
theorem board0_block (c : Dev nD) (t : Fin cfg0.N) (q : Fin 1024) (f : Fin 768) (r : Fin 16384) (hr : r.val = t.val * 1024 + q.val) :
    (iblk m c 0 t : Vec Ideal S1024x768 .f32) (ix2 q f) = (m ((c : Thread nD τ).loc main_arg0) : S16384x768.Idx → EReal) (ix2 r f) := by
  obtain ⟨e0, e1, -⟩ := index_facts t
  unfold iblk
  show V m c main_arg0 (((cfg0.win 0).blk t).view.emb (ix2 q f)) = _
  rw [V_main_arg0]
  refine congrArg _ (funext fun a => Fin.ext ?_)
  match a with
  | ⟨0, _⟩ => show win0_0.index t (0 : Fin 2) * 1024 + 1 * q.val = r.val; rw [e0, hr]; omega
  | ⟨1, _⟩ => show win0_0.index t (1 : Fin 2) * 768 + 1 * f.val = f.val; rw [e1]; omega

/-- Row q of the second board's block at point t is row r = 1024·t + q of the second board. -/
theorem board1_block (c : Dev nD) (t : Fin cfg0.N) (q : Fin 1024) (f : Fin 768) (r : Fin 16384) (hr : r.val = t.val * 1024 + q.val) :
    (iblk m c 1 t : Vec Ideal S1024x768 .f32) (ix2 q f) = (m ((c : Thread nD τ).loc main_arg1) : S16384x768.Idx → EReal) (ix2 r f) := by
  obtain ⟨-, -, e0, e1, -⟩ := index_facts t
  unfold iblk
  show V m c main_arg1 (((cfg0.win 1).blk t).view.emb (ix2 q f)) = _
  rw [V_main_arg1]
  refine congrArg _ (funext fun a => Fin.ext ?_)
  match a with
  | ⟨0, _⟩ => show win0_1.index t (0 : Fin 2) * 1024 + 1 * q.val = r.val; rw [e0, hr]; omega
  | ⟨1, _⟩ => show win0_1.index t (1 : Fin 2) * 768 + 1 * f.val = f.val; rw [e1]; omega

/-- The weights' block at every point is the whole weight array. -/
theorem weights_block (c : Dev nD) (t : Fin cfg0.N) (o : Fin 1024) (f : Fin 768) :
    (iblk m c 2 t : Vec Ideal S1024x768 .f32) (ix2 o f) = (m ((c : Thread nD τ).loc main_arg2) : S1024x768.Idx → EReal) (ix2 o f) := by
  obtain ⟨-, -, -, -, e0, e1, -⟩ := index_facts t
  unfold iblk
  show V m c main_arg2 (((cfg0.win 2).blk t).view.emb (ix2 o f)) = _
  rw [V_main_arg2]
  refine congrArg _ (funext fun a => Fin.ext ?_)
  match a with
  | ⟨0, _⟩ => show win0_2.index t (0 : Fin 2) * 1024 + 1 * o.val = o.val; rw [e0]; omega
  | ⟨1, _⟩ => show win0_2.index t (1 : Fin 2) * 768 + 1 * f.val = f.val; rw [e1]; omega

/-- The bias row's block at every point, at lane o, is entry o of the bias argument. -/
theorem bias_block (c : Dev nD) (t : Fin cfg0.N) (o : Fin 1024) :
    (iblk m c 3 t : Vec Ideal S1x1024 .f32) (ix2 (0 : Fin 1) o) = (m ((c : Thread nD τ).loc main_arg3) : S1024.Idx → EReal) (ix1 o) := by
  obtain ⟨-, -, -, -, -, -, e0, e1, -⟩ := index_facts t
  unfold iblk
  show (V m c main_v0 : S1x1024.Idx → EReal) (((cfg0.win 3).blk t).view.emb (ix2 (0 : Fin 1) o)) = _
  rw [bias_row]
  refine Eq.trans (congrArg _ (funext fun a => Fin.ext ?_)) (Cert.ColRowBroadcast.rowCast_apply _ shapeCasts_S1024_S1x1024 (0 : Fin 1) o)
  match a with
  | ⟨0, _⟩ => show win0_3.index t (0 : Fin 2) * 1 + 1 * 0 = 0; rw [e0]
  | ⟨1, _⟩ => show win0_3.index t (1 : Fin 2) * 1024 + 1 * o.val = o.val; rw [e1]; omega

/-- The output weight row's block at every point is the whole row. -/
theorem outw_block (c : Dev nD) (t : Fin cfg0.N) (k : Fin 2048) :
    (iblk m c 4 t : Vec Ideal S1x2048 .f32) (ix2 (0 : Fin 1) k) = (m ((c : Thread nD τ).loc main_arg4) : S1x2048.Idx → EReal) (ix2 (0 : Fin 1) k) := by
  obtain ⟨-, -, -, -, -, -, -, -, e0, e1, -⟩ := index_facts t
  unfold iblk
  show V m c main_arg4 (((cfg0.win 4).blk t).view.emb (ix2 (0 : Fin 1) k)) = _
  rw [V_main_arg4]
  refine congrArg _ (funext fun a => Fin.ext ?_)
  match a with
  | ⟨0, _⟩ => show win0_4.index t (0 : Fin 2) * 1 + 1 * 0 = 0; rw [e0]
  | ⟨1, _⟩ => show win0_4.index t (1 : Fin 2) * 2048 + 1 * k.val = k.val; rw [e1]; omega

/-- The output bias's block at every point is the one entry of the output bias argument. -/
theorem outb_block (c : Dev nD) (t : Fin cfg0.N) :
    (iblk m c 5 t : Vec Ideal S1x1 .f32) (ix2 (0 : Fin 1) (0 : Fin 1)) = (m ((c : Thread nD τ).loc main_arg5) : S1.Idx → EReal) (ix1 (0 : Fin 1)) := by
  obtain ⟨-, -, -, -, -, -, -, -, -, -, e0, e1, -⟩ := index_facts t
  unfold iblk
  show (V m c main_v1 : S1x1.Idx → EReal) (((cfg0.win 5).blk t).view.emb (ix2 (0 : Fin 1) (0 : Fin 1))) = _
  rw [out_bias]
  refine Eq.trans (congrArg _ (funext fun a => Fin.ext ?_)) (Cert.ColRowBroadcast.rowCast_apply _ shapeCasts_S1_S1x1 (0 : Fin 1) (0 : Fin 1))
  match a with
  | ⟨0, _⟩ => show win0_5.index t (0 : Fin 2) * 1 + 1 * 0 = 0; rw [e0]
  | ⟨1, _⟩ => show win0_5.index t (1 : Fin 2) * 1 + 1 * 0 = 0; rw [e1]

/-! ## What a point writes back, the cover, the array, the run -/

/-- WHAT POINT t WRITES BACK is block t of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero_offsets]
  simp only [View.ld_unit_zero (S := S1024x768) zero_offsets, View.ld_unit_zero (S := S1x1024) zero_offsets,
    View.ld_unit_zero (S := S1x2048) zero_offsets, View.ld_unit_zero (S := S1x1) zero_offsets]
  obtain ⟨-, -, -, -, -, -, -, -, -, -, -, -, e0, e1⟩ := index_facts t
  funext j
  have hj : (j 0).val < 1024 := (j 0).isLt
  have hN : cfg0.N = 16 := N_0
  have ht : t.val < 16 := hN ▸ t.isLt
  show k0_pay1 (F := Ideal) (k0_pay2 (iblk m c 2 t) (iblk m c 3 t) (iblk m c 4 t) (iblk m c 0 t) (iblk m c 1 t)) (k0_pay3 (iblk m c 5 t)) j
    = result m c (((cfg0.win 6).blk t).view.emb j)
  refine (Body.block_value (iblk m c 2 t) (iblk m c 3 t) (iblk m c 4 t) (iblk m c 0 t) (iblk m c 1 t) (iblk m c 5 t) j).trans ?_
  have hrow : ((((cfg0.win 6).blk t).view.emb j) 0).val = t.val * 1024 + (j 0).val := by
    show win0_6.index t (0 : Fin 2) * 1024 + 1 * (j 0).val = _
    rw [e0]; omega
  have h0 : (fun f : Fin 768 => (iblk m c 0 t : Vec Ideal S1024x768 .f32) (ix2 (⟨(j 0).val, (j 0).isLt⟩ : Fin 1024) f))
      = fun f => (m ((c : Thread nD τ).loc main_arg0) : S16384x768.Idx → EReal)
          (ix2 (⟨((((cfg0.win 6).blk t).view.emb j) 0).val, ((((cfg0.win 6).blk t).view.emb j) 0).isLt⟩ : Fin 16384) f) :=
    funext fun f => board0_block m c t _ f _ hrow
  have h1 : (fun f : Fin 768 => (iblk m c 1 t : Vec Ideal S1024x768 .f32) (ix2 (⟨(j 0).val, (j 0).isLt⟩ : Fin 1024) f))
      = fun f => (m ((c : Thread nD τ).loc main_arg1) : S16384x768.Idx → EReal)
          (ix2 (⟨((((cfg0.win 6).blk t).view.emb j) 0).val, ((((cfg0.win 6).blk t).view.emb j) 0).isLt⟩ : Fin 16384) f) :=
    funext fun f => board1_block m c t _ f _ hrow
  have h2 : (fun (o : Fin 1024) (f : Fin 768) => (iblk m c 2 t : Vec Ideal S1024x768 .f32) (ix2 o f))
      = fun o f => (m ((c : Thread nD τ).loc main_arg2) : S1024x768.Idx → EReal) (ix2 o f) :=
    funext fun o => funext fun f => weights_block m c t o f
  have h3 : (fun o : Fin 1024 => (iblk m c 3 t : Vec Ideal S1x1024 .f32) (ix2 (0 : Fin 1) o))
      = fun o => (m ((c : Thread nD τ).loc main_arg3) : S1024.Idx → EReal) (ix1 o) :=
    funext fun o => bias_block m c t o
  have h4 : (fun k : Fin 2048 => (iblk m c 4 t : Vec Ideal S1x2048 .f32) (ix2 (0 : Fin 1) k))
      = fun k => (m ((c : Thread nD τ).loc main_arg4) : S1x2048.Idx → EReal) (ix2 (0 : Fin 1) k) :=
    funext fun k => outw_block m c t k
  rw [h0, h1, h2, h3, h4, outb_block m c t]
  rfl

/-- An index of the result array is in point t's block iff each coordinate is in the block's range on its axis. -/
theorem mem_block (t : Fin cfg0.N) (i : S16384x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2).slice (win0_6.rect t)).set ↔ _
  rw [View.set_slice_whole, Rect.mem_set_unit]
  exact Iff.rfl

/-- Every entry of the result array lies in some point's block: row r in the block of point r / 1024. -/
theorem covered (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, -, -, -, -, -, -, e0, e1⟩ := index_facts t
  refine ⟨t, flush0_6 t, ?_⟩
  rw [mem_block]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1 ≤ (i 1).val ∧ (i 1).val < win0_6.index t (1 : Fin 2) * 1 + 1
    rw [e1]; omega

/-- THE RESULT ARRAY after the run is `result`. -/
theorem final (c : Dev nD) : (dats m 0 c).arrAt 6 cfg0.N = result m c :=
  (dats m 0 c).arrAt_eq_of_cover 6 (result m c) (fun t _ => flushed_eq m c t) covered

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.TwoSided.Kernel

end
-- ==== Proof.RefIsSpec.lean ====
/-
  The reference's result array is `G` of its six argument arrays.

  The reference computes both perspectives' features for all 16384 rows, lays the two [16384, 1024] arrays side by side
  into [16384, 2048], clamps and squares every entry, and contracts the 2048 columns against the output weight row. Read
  at one entry (b, 0): a joined column k < 1024 is the first perspective's feature k of row b, a column 1024 + o is the second
  perspective's feature o, so the sum over the 2048 columns is the first half's weighted sum plus the second half's
  (`sum_halves`). The logistic function is written out as 1 / (1 + exp (−s)), which is its definition once the word of 1.0
  is read as the number one.
-/
import proofs.«180554_j5411658793655_2_alg».proof.Proof.Gen.ReferenceIdeal.Read
import proofs.«180554_j5411658793655_2_alg».proof.Proof.Spec

noncomputable section

namespace Cert.TwoSided.Ref

open Cert.ReferenceIdeal Cert.ReferenceIdeal.Gen Cert.ReferenceIdeal.Read Cert.TwoSided
open Idealize.ShloMosaic Idealize.ShloMosaic.ValueIdx

variable (x0 x1 : (⟨S16384x768, .f32⟩ : BufTy).Contents (Elt Ideal)) (x2 : (⟨S1024x768, .f32⟩ : BufTy).Contents (Elt Ideal))
  (x3 : (⟨S1024, .f32⟩ : BufTy).Contents (Elt Ideal)) (x4 : (⟨S1x2048, .f32⟩ : BufTy).Contents (Elt Ideal))
  (x5 : (⟨S1, .f32⟩ : BufTy).Contents (Elt Ideal))

/-- A perspective's feature array at (b, o): row b of the board against row o of the weights, plus the bias. -/
theorem feature_first (b : Fin 16384) (o : Fin 1024) :
    val_main_v3 (F := Ideal) x0 x2 x3 (ix2 b o) = feat (fun f => x0 (ix2 b f)) (fun o f => x2 (ix2 o f)) (fun o => x3 (ix1 o)) o := by
  rw [val_main_v3_apply, val_main_v0_apply, val_main_v2_apply, val_main_v1_apply]
  have el : ∀ k : Fin 768, lidx_main_v0 (ix2 b o) k = ix2 b k := fun k => funext fun a => Fin.ext (by
    match a with | ⟨0, _⟩ => rfl | ⟨1, _⟩ => rfl)
  have er : ∀ k : Fin 768, ridx_main_v0 (ix2 b o) k = ix2 o k := fun k => funext fun a => Fin.ext (by
    match a with | ⟨0, _⟩ => rfl | ⟨1, _⟩ => rfl)
  have eb : idx_main_v1 (idx_main_v2 (ix2 b o)) = ix1 o := funext fun a => Fin.ext (by
    match a with | ⟨0, _⟩ => rfl)
  simp only [el, er, eb]
  rfl

theorem feature_second (b : Fin 16384) (o : Fin 1024) :
    val_main_v7 (F := Ideal) x1 x2 x3 (ix2 b o) = feat (fun f => x1 (ix2 b f)) (fun o f => x2 (ix2 o f)) (fun o => x3 (ix1 o)) o := by
  rw [val_main_v7_apply, val_main_v4_apply, val_main_v6_apply, val_main_v5_apply]
  have el : ∀ k : Fin 768, lidx_main_v4 (ix2 b o) k = ix2 b k := fun k => funext fun a => Fin.ext (by
    match a with | ⟨0, _⟩ => rfl | ⟨1, _⟩ => rfl)
  have er : ∀ k : Fin 768, ridx_main_v4 (ix2 b o) k = ix2 o k := fun k => funext fun a => Fin.ext (by
    match a with | ⟨0, _⟩ => rfl | ⟨1, _⟩ => rfl)
  have eb : idx_main_v5 (idx_main_v6 (ix2 b o)) = ix1 o := funext fun a => Fin.ext (by
    match a with | ⟨0, _⟩ => rfl)
  simp only [el, er, eb]
  rfl

/-- The joined array at a column of its first half is the first perspective's feature. -/
theorem joined_low (b : Fin 16384) (o : Fin 1024) :
    val_main_v8 (F := Ideal) x0 x1 x2 x3 (ix2 b (lowHalf o)) = val_main_v3 (F := Ideal) x0 x2 x3 (ix2 b o) := by
  unfold val_main_v8
  exact concatenate_pair_apply_left (t := S16384x2048) (s₁ := S16384x1024) (s₂ := S16384x1024) (1 : Fin 2) _ _ _ (ix2 b (lowHalf o)) rfl (ix2 b o) (fun c => by
    match c with | ⟨0, _⟩ => rfl | ⟨1, _⟩ => rfl)

/-- The joined array at a column of its second half is the second perspective's feature. -/
theorem joined_high (b : Fin 16384) (o : Fin 1024) :
    val_main_v8 (F := Ideal) x0 x1 x2 x3 (ix2 b (highHalf o)) = val_main_v7 (F := Ideal) x1 x2 x3 (ix2 b o) := by
  unfold val_main_v8
  exact concatenate_pair_apply_right (t := S16384x2048) (s₁ := S16384x1024) (s₂ := S16384x1024) (1 : Fin 2) _ _ _ (ix2 b (highHalf o)) rfl rfl (ix2 b o) (fun c hc => by
    match c with | ⟨0, _⟩ => rfl | ⟨1, _⟩ => exact absurd rfl hc) (by
    show o.val + 1024 = 1024 + o.val
    omega)

/-- The clamped and squared joined array at column k of row b is `act` of the joined array there. -/
theorem activation_apply (b : Fin 16384) (k : Fin 2048) :
    val_main_v10 (F := Ideal) x0 x1 x2 x3 (ix2 b k) = act (val_main_v8 (F := Ideal) x0 x1 x2 x3 (ix2 b k)) := by
  rw [val_main_v10_apply, val_main_v9_apply, val_main_call0_v4_apply, val_main_call0_v3_apply, val_main_cst_0_apply,
    val_main_call0_v2_apply, val_main_call0_v1_apply, val_main_call0_v0_apply, val_main_cst_apply]
  rfl

/-- The contraction of the 2048 activations of row b against the output weights: the two perspectives' weighted sums. -/
theorem head_apply (b : Fin 16384) :
    val_main_v11 (F := Ideal) x0 x1 x2 x3 x4 (ix2 b (0 : Fin 1))
      = half (fun f => x0 (ix2 b f)) (fun o f => x2 (ix2 o f)) (fun o => x3 (ix1 o)) (fun o => x4 (ix2 (0 : Fin 1) (lowHalf o)))
        + half (fun f => x1 (ix2 b f)) (fun o f => x2 (ix2 o f)) (fun o => x3 (ix1 o)) (fun o => x4 (ix2 (0 : Fin 1) (highHalf o))) := by
  have el : ∀ k : Fin 2048, lidx_main_v11 (ix2 b (0 : Fin 1)) k = ix2 b k := fun k => funext fun a => Fin.ext (by
    match a with | ⟨0, _⟩ => rfl | ⟨1, _⟩ => rfl)
  have er : ∀ k : Fin 2048, ridx_main_v11 (ix2 b (0 : Fin 1)) k = ix2 (0 : Fin 1) k := fun k => funext fun a => Fin.ext (by
    match a with | ⟨0, _⟩ => rfl | ⟨1, _⟩ => rfl)
  rw [val_main_v11_apply, sum_halves]
  unfold half
  refine congrArg₂ (· + ·) ?_ ?_
  · refine Finset.sum_congr rfl fun o _ => ?_
    show val_main_v10 (F := Ideal) x0 x1 x2 x3 (lidx_main_v11 (ix2 b (0 : Fin 1)) (lowHalf o)) * x4 (ridx_main_v11 (ix2 b (0 : Fin 1)) (lowHalf o)) = _
    rw [el, er, activation_apply, joined_low, feature_first]
  · refine Finset.sum_congr rfl fun o _ => ?_
    show val_main_v10 (F := Ideal) x0 x1 x2 x3 (lidx_main_v11 (ix2 b (0 : Fin 1)) (highHalf o)) * x4 (ridx_main_v11 (ix2 b (0 : Fin 1)) (highHalf o)) = _
    rw [el, er, activation_apply, joined_high, feature_second]

/-- THE REFERENCE'S RESULT is `G` of the argument arrays. -/
theorem result_eq : val_main_v20 (F := Ideal) x0 x1 x2 x3 x4 x5 = G x0 x1 x2 x3 x4 x5 := by
  funext i
  obtain ⟨b, z, rfl⟩ : ∃ (b : Fin 16384) (z : Fin 1), i = ix2 b z := ⟨i 0, i 1, eq_ix2 i⟩
  obtain rfl : z = 0 := Subsingleton.elim _ _
  rw [G_apply, val_main_v20_apply, val_main_v19_apply, val_main_cst_2_apply, val_main_v18_apply, val_main_v17_apply,
    val_main_cst_1_apply, val_main_v16_apply, val_main_v15_apply, val_main_v14_apply, head_apply, val_main_v13_apply,
    val_main_v12_apply]
  have eb : idx_main_v12 (idx_main_v13 (ix2 b (0 : Fin 1))) = ix1 (0 : Fin 1) := funext fun a => Fin.ext (by
    match a with | ⟨0, _⟩ => rfl)
  rw [eb]
  unfold eval score Ideal.logistic
  show Ideal.div (Ideal.ofBits .f32 0x3F800000#32) (Ideal.ofBits .f32 0x3F800000#32 + Ideal.exp (-_)) = Ideal.div 1 (1 + Ideal.exp (-_))
  rw [ofBits_one_f32]
  rfl

end Cert.TwoSided.Ref

end
-- ==== Proof.lean ====
/-
  A two-perspective feature transformer with a one-output head, kernel against reference, on the extended reals.

  For each of 16384 board pairs the result is logistic(Σ_o act(x·W_o + β_o) · ω_o + Σ_o act(y·W_o + β_o) · ω_{1024+o} + γ),
  where x and y are the pair's two 768-entry rows, W is the 1024 × 768 weight array, β the bias, act clamps to [0, 1] and
  squares, ω is the 2048-entry output weight row and γ the output bias (`Cert.TwoSided.G`, Proof/Spec.lean).

  The reference joins the two perspectives' 1024 activations into 2048 and takes one weighted sum; read at an entry, that
  sum splits into the two halves' sums (Proof/RefIsSpec.lean). The kernel works on blocks of 1024 rows and takes the two
  sums separately (Proof/BodyIsSpec.lean); its 16 blocks tile the result array (Proof/KernelArray.lean). Only commutativity
  and associativity of addition on the extended reals are used, so the inputs' finiteness is never needed. The kernel's
  idealization rewrote nothing, so the idealization claim is empty.
-/
import proofs.«180554_j5411658793655_2_alg».proof.Defs
import proofs.«180554_j5411658793655_2_alg».proof.Proof.Gen.Kernel
import proofs.«180554_j5411658793655_2_alg».proof.Proof.Gen.Kernel.Skeleton
import proofs.«180554_j5411658793655_2_alg».proof.Proof.Gen.Kernel.Launch
import proofs.«180554_j5411658793655_2_alg».proof.Proof.Gen.Kernel.Points
import proofs.«180554_j5411658793655_2_alg».proof.Proof.Gen.Kernel.Frame
import proofs.«180554_j5411658793655_2_alg».proof.Proof.Gen.KernelIdeal
import proofs.«180554_j5411658793655_2_alg».proof.Proof.Gen.KernelIdeal.Skeleton
import proofs.«180554_j5411658793655_2_alg».proof.Proof.Gen.KernelIdeal.Launch
import proofs.«180554_j5411658793655_2_alg».proof.Proof.Gen.KernelIdeal.Points
import proofs.«180554_j5411658793655_2_alg».proof.Proof.Gen.KernelIdeal.Frame
import proofs.«180554_j5411658793655_2_alg».proof.Proof.Gen.ReferenceIdeal
import proofs.«180554_j5411658793655_2_alg».proof.Proof.Gen.Pre_finite_inputs
import proofs.«180554_j5411658793655_2_alg».proof.Proof.Gen.ReferenceIdeal.Run
import proofs.«180554_j5411658793655_2_alg».proof.Proof.Gen.ReferenceIdeal.Read
import proofs.«180554_j5411658793655_2_alg».proof.Proof.KernelArray
import proofs.«180554_j5411658793655_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to its end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of the arguments they were launched on, and those agree. -/
theorem algebraic : Cert.algebraic_KernelIdeal_ReferenceIdeal := by
  intro m ρ m' ρ' _ hagree
  refine ⟨fun c => Cert.TwoSided.Kernel.result m c, Cert.TwoSided.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _ _ _ _ _).trans ?_
  refine (Cert.TwoSided.Ref.result_eq _ _ _ _ _ _).trans ?_
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
